-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S256x128 .f32) (main_arg3 : FVec F S128x128 .f32) (main_arg4 : FVec F S128x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S10000x256 : Shape := ⟨2, ![10000, 256]⟩
abbrev S10000x128 : Shape := ⟨2, ![10000, 128]⟩
abbrev S850000x128 : Shape := ⟨2, ![850000, 128]⟩

abbrev nBuf : Space → Nat
  | .hbm => 109
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S50000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .bf16⟩
  | .hbm, ⟨47, _⟩ => ⟨S256x128, .bf16⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .bf16⟩
  | .hbm, ⟨69, _⟩ => ⟨S128x128, .bf16⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x128, .bf16⟩
  | .hbm, ⟨91, _⟩ => ⟨S128x128, .bf16⟩
  | .hbm, ⟨92, _⟩ => ⟨S50000x128, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x128, .f32⟩
  | .hbm, ⟨102, _⟩ => ⟨S850000x1, .f32⟩
  | .hbm, ⟨103, _⟩ => ⟨S850000x128, .f32⟩
  | .hbm, ⟨104, _⟩ => ⟨S850000x128, .f32⟩
  | .hbm, ⟨105, _⟩ => ⟨S_, .f32⟩
  | .hbm, ⟨106, _⟩ => ⟨S50000x128, .f32⟩
  | .hbm, ⟨107, _⟩ => ⟨S850000x1, .i32⟩
  | .hbm, ⟨108, _⟩ => ⟨S50000x128, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x128, .bf16⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .f32⟩
  | .local _ .vmem, ⟨14, _⟩ => ⟨S10000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call2_cst : Ref sig .tc := ⟨.hbm, 65, rfl⟩
abbrev main_call2_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call4_cst : Ref sig .tc := ⟨.hbm, 87, rfl⟩
abbrev main_call4_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x256_S256x128_S10000x128_1_0_0_1_n_n_wf : DotDims.WF S10000x256 S256x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .bf16 = 32 ∨ (Rect.block (s := S50000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v31) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S50000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S850000x128, .f32⟩
  | .hbm, ⟨99, _⟩ => ⟨S_, .f32⟩
  | .hbm, ⟨100, _⟩ => ⟨S50000x128, .f32⟩
  | .hbm, ⟨101, _⟩ => ⟨S850000x1, .i32⟩
  | .hbm, ⟨102, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call2_cst : Ref sig .tc := ⟨.hbm, 83, rfl⟩
abbrev main_call2_v0 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibFoldNormal.lean ====
/-
  Reading a fold of host operations down to its arguments: two rewriting facts that complete the library's one-pass
  normal form (`StableHlo.after_results_simp`).

  1. A `concatenate` of two pieces carries, after its list of pieces, a proof about the list's shapes; a rewriting pass
     therefore does not enter the list, and whatever the two pieces are stays unread. `cat2` is the same operation as a
     plain function of its two pieces (the proof now speaks of the two shapes only), and `concatenate_pair` presents a
     two-piece `concatenate` as `cat2`, whose operands a rewriting pass does reach.
  2. An operation inlined from a called function reads and writes its buffers through a transport along the buffer's
     type equation; a value written by one such operation and read by the next meets the two transports back to back,
     which cancel by Mathlib's `cast_cast` and `cast_eq`. (Nothing to state here: cite those two lemmas.)
-/
import Idealize.ShloMosaic.PureOps.ShapeOps

namespace Cert.FoldNormal

open Idealize.ShloMosaic

/-- The concatenation of two pieces along axis `a`, as a function of the two pieces. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece `concatenate` is `cat2` of its pieces. -/
theorem concatenate_pair {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.FoldNormal
-- ==== Proof.GraphConv.lean ====
/-
  The graph convolution both programs compute, as closed functions of the argument arrays.

  The edge table `e` (2 × 800000) lists sources (row 0) and targets (row 1). Every node gets a self loop, so the
  edge lists have 850000 entries: the table's row followed by 0 … 49999. A node's degree is the number of entries of
  the target list equal to it (a scatter-add of ones); its inverse square root is taken where the degree is positive
  and replaced by 0 elsewhere. An edge's weight is the product of that quantity at its two ends. One propagation step
  sends a feature matrix `h` (50000 × 128) to the matrix whose row `n` is the sum, over the edges with target `n`, of
  weight · (row source of `h`): a gather of rows, a scaling, a scatter-add. The network is three such steps, each after
  a matrix product with a weight matrix, with a rectifier between the steps. The two programs differ only in how the
  three products are computed, so the network is stated over the two product functions (256- and 128-wide).
-/
import proofs.«147594_j19825569038949_1_alg».proof.Proof.Gen.ReferenceIdeal
import proofs.«147594_j19825569038949_1_alg».proof.Proof.LibFoldNormal

noncomputable section

namespace Cert.GraphConv

open Idealize.ShloMosaic Cert.ReferenceIdeal Cert.ReferenceIdeal.Gen Cert.FoldNormal

variable {F : FTy → Type} [FloatOps F]

/-- The edges' sources: row 0 of the table, then every node once. -/
def sources (e : IVec S2x800000 32) : IVec S850000 32 :=
  cat2 S850000 0 S800000 S50000 concatenates_S800000_S50000_S850000_d0
    (shapeCast S800000 (extractStridedSlice S1x800000 ![0, 0] e slices_S2x800000_S1x800000_0_0) shapeCasts_S1x800000_S800000)
    (iotaInDim S50000 32 0)

/-- The edges' targets: row 1 of the table, then every node once. -/
def targets (e : IVec S2x800000 32) : IVec S850000 32 :=
  cat2 S850000 0 S800000 S50000 concatenates_S800000_S50000_S850000_d0
    (shapeCast S800000 (extractStridedSlice S1x800000 ![1, 0] e slices_S2x800000_S1x800000_1_0) shapeCasts_S1x800000_S800000)
    (iotaInDim S50000 32 0)

/-- A negative node index counts from the end: 50000 is added to it. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A list of 850000 entries as a one-column table. -/
def column {α : Type} (v : S850000.Idx → α) : S850000x1.Idx → α :=
  broadcastInDim S850000x1 ![0] bcast_S850000_S850000x1_0 v

/-- A node's degree: how many entries of the target list name it. -/
def degree (tgt : IVec S850000 32) : FVec F S50000 .f32 :=
  Host.scatterAdd scatter_S50000_S850000x1_S850000_n_0_0_1
    (broadcastInDim S50000 ![] bcast_S_S50000 (constant (F := F) S_ .f32 0x00000000#32))
    (column tgt)
    (broadcastInDim S850000 ![] bcast_S_S850000 (constant (F := F) S_ .f32 0x3F800000#32))

/-- degree^(-1/2) where the degree is positive, 0 elsewhere. -/
def invSqrtDegree (tgt : IVec S850000 32) : FVec F S50000 .f32 :=
  select (cmpf (F := F) .ogt (degree tgt) (broadcastInDim S50000 ![] bcast_S_S50000 (constant (F := F) S_ .f32 0x00000000#32)))
    (Host.rsqrt (degree (F := F) tgt))
    (broadcastInDim S50000 ![] bcast_S_S50000 (constant (F := F) S_ .f32 0x00000000#32))

/-- An edge's weight: the product of degree^(-1/2) at its source and at its target. -/
def edgeWeight (src tgt : IVec S850000 32) : FVec F S850000 .f32 :=
  mulf (Host.gather gather_S50000_S850000x1_S850000_n_0_n_n_0_1_1 (invSqrtDegree (F := F) tgt) (column (wrap src)))
    (Host.gather gather_S50000_S850000x1_S850000_n_0_n_n_0_1_1 (invSqrtDegree (F := F) tgt) (column (wrap tgt)))

/-- One propagation step: row `n` of the result is the sum over the edges with target `n` of weight · (the source's row of `h`). -/
def propagate (h : FVec F S50000x128 .f32) (src tgt : IVec S850000 32) (w : FVec F S850000 .f32) : FVec F S50000x128 .f32 :=
  Host.scatterAdd scatter_S50000x128_S850000x1_S850000x128_1_0_0_1
    (broadcastInDim S50000x128 ![] bcast_S_S50000x128 (constant (F := F) S_ .f32 0x00000000#32))
    (column tgt)
    (mulf (Host.gather gather_S50000x128_S850000x1_S850000x128_1_0_n_n_0_1_1128 h (column (wrap src)))
      (broadcastInDim S850000x128 ![0, 1] bcast_S850000x1_S850000x128_0_1 (column w)))

/-- The rectifier: the maximum with 0, entry by entry. -/
def relu (h : FVec F S50000x128 .f32) : FVec F S50000x128 .f32 :=
  maximumf h (broadcastInDim S50000x128 ![] bcast_S_S50000x128 (constant (F := F) S_ .f32 0x00000000#32))

/-- The host's 256-wide product (the reference's first `dot_general`). -/
abbrev hostProduct0 (l : FVec F S50000x256 .f32) (r : FVec F S256x128 .f32) : FVec F S50000x128 .f32 :=
  Host.dotGeneral dot_S50000x256_S256x128_S50000x128_1_0_0_1_n_n none l r

/-- The host's 128-wide product (the reference's second and third `dot_general`). -/
abbrev hostProduct1 (l : FVec F S50000x128 .f32) (r : FVec F S128x128 .f32) : FVec F S50000x128 .f32 :=
  Host.dotGeneral dot_S50000x128_S128x128_S50000x128_1_0_0_1_n_n none l r

/-- The three-layer network over a 256-wide product `p0` and a 128-wide product `p1`. -/
def network (p0 : FVec F S50000x256 .f32 → FVec F S256x128 .f32 → FVec F S50000x128 .f32)
    (p1 : FVec F S50000x128 .f32 → FVec F S128x128 .f32 → FVec F S50000x128 .f32)
    (x : FVec F S50000x256 .f32) (e : IVec S2x800000 32) (w0 : FVec F S256x128 .f32) (w1 w2 : FVec F S128x128 .f32) :
    FVec F S50000x128 .f32 :=
  propagate (p1 (relu (propagate (p1 (relu (propagate (p0 x w0) (sources e) (targets e) (edgeWeight (sources e) (targets e))))
      w1) (sources e) (targets e) (edgeWeight (sources e) (targets e)))) w2)
    (sources e) (targets e) (edgeWeight (sources e) (targets e))

end Cert.GraphConv

end
-- ==== Proof.RefValue.lean ====
/-
  The reference computes the network with the host's two matrix products.
  Its result buffer, read through its 98 host operations down to the argument arrays, is `GraphConv.network` at the
  products `Host.dotGeneral` of the reference's two dimension records.
-/
import proofs.«147594_j19825569038949_1_alg».proof.Proof.RefRunPatched
import proofs.«147594_j19825569038949_1_alg».proof.Proof.GraphConv

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GraphConv Cert.FoldNormal

variable {F : FTy → Type} [FloatOps F]

set_option maxRecDepth 8192 in
set_option maxHeartbeats 4000000 in
/-- The result buffer after the reference's operations is the network of the launch contents of the five arguments. -/
theorem result_eq (m : (ℓ : Loc nD τ sig) → Buf (Elt F) ℓ) (c : Dev nD) :
    after (RunP.ops (F := F)) (launchContents m c) (Proc.devRef .tc main_v74)
      = network (F := F) hostProduct0 hostProduct1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair, cast_cast, cast_eq]
  rfl

end Cert.ReferenceIdeal.RefValue

end
-- ==== Proof.KernelRun.lean ====
/-
  The kernel's run with its result named.

  @main of the kernel is thirteen segments: host operations, the first product region, host operations, the second
  region, host operations, the third region, host operations. Every weakly fair execution runs them in order and
  terminates without a fault; the buffers' contents at each boundary are a fold from the launch memory, and the final
  state holds every buffer at the last boundary's contents. In particular the result buffer ends at those contents
  (which the value lemmas read down to the arguments), and the five arguments end as launched.
-/
import proofs.«147594_j19825569038949_1_alg».proof.Proof.Gen.KernelIdeal.Frame

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's @main terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v80) = W13 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v80 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.KernelIdeal.RunV

end
-- ==== Proof.KernelHost.lean ====
/-
  The kernel's host operations between its three matrix-product regions, read down to the buffers they start from.

  From any contents `V` of the buffers: the first stretch computes the edges' sources and targets and the edge
  weights from the edge table, and brings the features and the first weight matrix to the product's input format; each
  middle stretch propagates a product's result along the edges, rectifies it and brings it and the next weight matrix
  to the input format, leaving the edge lists and weights untouched; the last stretch propagates the last product.
  The operations are those of `GraphConv`, entry for entry.
-/
import proofs.«147594_j19825569038949_1_alg».proof.Proof.Gen.KernelIdeal.Launch
import proofs.«147594_j19825569038949_1_alg».proof.Proof.GraphConv
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo
open Cert.GraphConv Cert.FoldNormal

variable {F : FTy → Type} [FloatOps F]

/-- One pass over a fold of host operations: each operation's result at its own buffer is its function of its operands'
    contents, at any other buffer what was there; a two-piece concatenation is read as a function of its pieces; the
    transports of an inlined call cancel. -/
macro "read_fold" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair, cast_cast, cast_eq])

variable (V : Valuation τ sig (Elt F))

/-! ## Before the first product -/

/-- The buffers after the operations before the first product. -/
abbrev seg0 : Valuation τ sig (Elt F) := after hostOps0_2 (after hostOps0_1 (after hostOps0 V))

set_option maxRecDepth 8192 in
theorem seg0_sources : seg0 V (Proc.devRef .tc main_v3) = sources (V (Proc.devRef .tc main_arg1)) := by
  read_fold <;> rfl

set_option maxRecDepth 8192 in
theorem seg0_targets : seg0 V (Proc.devRef .tc main_v7) = targets (V (Proc.devRef .tc main_arg1)) := by
  read_fold <;> rfl

set_option maxRecDepth 8192 in
set_option maxHeartbeats 1000000 in
theorem seg0_weights : seg0 V (Proc.devRef .tc main_v30)
    = edgeWeight (F := F) (sources (V (Proc.devRef .tc main_arg1))) (targets (V (Proc.devRef .tc main_arg1))) := by
  read_fold <;> rfl

set_option maxRecDepth 8192 in
theorem seg0_features : seg0 V (Proc.devRef .tc main_v31) = truncf .bf16 (V (Proc.devRef .tc main_arg0)) bitsLt_bf16_f32 := by
  read_fold <;> rfl

set_option maxRecDepth 8192 in
theorem seg0_matrix : seg0 V (Proc.devRef .tc main_v32) = truncf .bf16 (V (Proc.devRef .tc main_arg2)) bitsLt_bf16_f32 := by
  read_fold <;> rfl

set_option maxRecDepth 8192 in
theorem seg0_arg3 : seg0 V (Proc.devRef .tc main_arg3) = V (Proc.devRef .tc main_arg3) := by
  read_fold <;> rfl

set_option maxRecDepth 8192 in
theorem seg0_arg4 : seg0 V (Proc.devRef .tc main_arg4) = V (Proc.devRef .tc main_arg4) := by
  read_fold <;> rfl

/-! ## Between the first and the second product -/

/-- The buffers after the operations between the first and the second product. -/
abbrev seg1 : Valuation τ sig (Elt F) := after hostOps1_2 (after hostOps1_1 (after hostOps1 V))

set_option maxRecDepth 8192 in
set_option maxHeartbeats 1000000 in
theorem seg1_features : seg1 V (Proc.devRef .tc main_v48)
    = truncf .bf16 (relu (F := F) (propagate (F := F) (V (Proc.devRef .tc main_v33)) (V (Proc.devRef .tc main_v3)) (V (Proc.devRef .tc main_v7))
        (V (Proc.devRef .tc main_v30)))) bitsLt_bf16_f32 := by
  read_fold <;> rfl

set_option maxRecDepth 8192 in
theorem seg1_matrix : seg1 V (Proc.devRef .tc main_v49) = truncf .bf16 (V (Proc.devRef .tc main_arg3)) bitsLt_bf16_f32 := by
  read_fold <;> rfl

set_option maxRecDepth 8192 in
theorem seg1_sources : seg1 V (Proc.devRef .tc main_v3) = V (Proc.devRef .tc main_v3) := by
  read_fold <;> rfl
set_option maxRecDepth 8192 in
theorem seg1_targets : seg1 V (Proc.devRef .tc main_v7) = V (Proc.devRef .tc main_v7) := by
  read_fold <;> rfl
set_option maxRecDepth 8192 in
theorem seg1_weights : seg1 V (Proc.devRef .tc main_v30) = V (Proc.devRef .tc main_v30) := by
  read_fold <;> rfl
set_option maxRecDepth 8192 in
theorem seg1_arg4 : seg1 V (Proc.devRef .tc main_arg4) = V (Proc.devRef .tc main_arg4) := by
  read_fold <;> rfl

/-! ## Between the second and the third product -/

/-- The buffers after the operations between the second and the third product. -/
abbrev seg2 : Valuation τ sig (Elt F) := after hostOps2_2 (after hostOps2_1 (after hostOps2 V))

set_option maxRecDepth 8192 in
set_option maxHeartbeats 1000000 in
theorem seg2_features : seg2 V (Proc.devRef .tc main_v65)
    = truncf .bf16 (relu (F := F) (propagate (F := F) (V (Proc.devRef .tc main_v50)) (V (Proc.devRef .tc main_v3)) (V (Proc.devRef .tc main_v7))
        (V (Proc.devRef .tc main_v30)))) bitsLt_bf16_f32 := by
  read_fold <;> rfl

set_option maxRecDepth 8192 in
theorem seg2_matrix : seg2 V (Proc.devRef .tc main_v66) = truncf .bf16 (V (Proc.devRef .tc main_arg4)) bitsLt_bf16_f32 := by
  read_fold <;> rfl

set_option maxRecDepth 8192 in
theorem seg2_sources : seg2 V (Proc.devRef .tc main_v3) = V (Proc.devRef .tc main_v3) := by
  read_fold <;> rfl
set_option maxRecDepth 8192 in
theorem seg2_targets : seg2 V (Proc.devRef .tc main_v7) = V (Proc.devRef .tc main_v7) := by
  read_fold <;> rfl
set_option maxRecDepth 8192 in
theorem seg2_weights : seg2 V (Proc.devRef .tc main_v30) = V (Proc.devRef .tc main_v30) := by
  read_fold <;> rfl

/-! ## After the third product -/

set_option maxRecDepth 8192 in
set_option maxHeartbeats 1000000 in
theorem seg3_result : after hostOps3 V (Proc.devRef .tc main_v80)
    = propagate (F := F) (V (Proc.devRef .tc main_v67)) (V (Proc.devRef .tc main_v3)) (V (Proc.devRef .tc main_v7)) (V (Proc.devRef .tc main_v30)) := by
  read_fold <;> rfl

end Cert.KernelIdeal.HostVal

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Product0.lean ====
/-
  The first matrix-product region computes the whole product.

  The region runs over five row tiles. At tile `t` the body multiplies rows 10000·t … 10000·t + 9999 of the left array
  (all 256 columns) by the whole right array into a zero accumulator and writes the 10000 × 128 result to the same rows
  of the output. At the ideal values entry (a, b) of a tile's result is the sum over k < 256 of left(a, k) · right(k, b),
  which is entry (10000·t + a, b) of the whole product; the five tiles cover all 50000 rows, so after the region the
  output array is the whole product of the two arrays the region found on entry.
-/
import proofs.«147594_j19825569038949_1_alg».proof.Proof.Gen.KernelIdeal.Frame
import proofs.«147594_j19825569038949_1_alg».proof.Proof.LibPlainDot
import Idealize.ShloMosaic.Lib.Pipeline.Value
import Idealize.ShloMosaic.Lib.ValueIdx

set_option maxRecDepth 16384

noncomputable section

namespace Cert.KernelIdeal.Product0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The whole product: entry (a, b) is the sum over k < 256 of left(a, k) · right(k, b). -/
def product (A : (⟨2, ![50000, 256]⟩ : Shape).Idx → EReal) (B : (⟨2, ![256, 128]⟩ : Shape).Idx → EReal) :
    (⟨2, ![50000, 128]⟩ : Shape).Idx → EReal :=
  fun i => ∑ k : Fin 256, A (ix2 (i 0) k) * B (ix2 k (i 1))

/-- A tile's result at an entry: the body's product into a zero accumulator is the plain sum over the 256 columns. -/
theorem tile_apply (x0 : Vec Ideal S10000x256 .bf16) (x1 : Vec Ideal S256x128 .bf16) (j : S10000x128.Idx) :
    k0_pay1 (F := Ideal) x0 x1 j = ∑ k : Fin 256, x0 (ix2 (j 0) k) * x1 (ix2 k (j 1)) := by
  unfold k0_pay1
  simp only [shapeCast_self]
  exact Cert.LibPlainDot.matmul_plain 10000 256 128 none x0 x1 j

/-- The printed index maps, decided over the five tiles: the left window moves with the output's rows and spans all
    columns; the right window stays; the output's column block is 0 and its row block is below 5. -/
theorem index_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every row block is some tile's. -/
theorem index_onto : ∀ q : Fin 5, ∃ t : Fin cfg0.N, win0_2.index t (0 : Fin 2) = q.val :=
  (by decide +kernel : ∀ q : Fin 5, ∃ t : Fin grid0.N, win0_2.index t (0 : Fin 2) = q.val)

/-- What tile `t` writes back is its block of the whole product of the arrays the region found. -/
theorem flushed_eq (c : Dev nD) (t : Fin cfg0.N) :
    (dat0 V c).flushed 2 t
      = ((cfg0.win 2).blk t).view.read (Elt Ideal) (product (V c main_v31) (V c main_v32)) := by
  show (cfg0.win 2).cut (grid0.coords t) ((dat0 V c).after 2 t) = _
  rw [after0_2]
  unfold out0_2
  rw [View.canon_unit_zero offsets_zero]
  simp only [View.ld_unit_zero (S := S10000x256) offsets_zero, View.ld_unit_zero (S := S256x128) offsets_zero]
  obtain ⟨e0, e1, e2, e3, e4, -⟩ := index_facts t
  funext j
  show k0_pay1 (F := Ideal) (iblk0 V c 0 t) (iblk0 V c 1 t) j
    = product (V c main_v31) (V c main_v32) (((cfg0.win 2).blk t).view.emb j)
  refine (tile_apply (iblk0 V c 0 t) (iblk0 V c 1 t) j).trans ?_
  unfold product
  refine Finset.sum_congr rfl fun k _ => ?_
  have hA : iblk0 V c 0 t (ix2 (j 0) k) = V c main_v31 (ix2 ((((cfg0.win 2).blk t).view.emb j) 0) k) := by
    show V c main_v31 (((cfg0.win 0).blk t).view.emb (ix2 (j 0) k)) = _
    refine congrArg (V c main_v31) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 256 + 1 * k.val = k.val
      omega
  have hB : iblk0 V c 1 t (ix2 k (j 1)) = V c main_v32 (ix2 k ((((cfg0.win 2).blk t).view.emb j) 1)) := by
    show V c main_v32 (((cfg0.win 1).blk t).view.emb (ix2 k (j 1))) = _
    refine congrArg (V c main_v32) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega
  exact congr (congrArg HMul.hMul hA) hB

/-- An entry of the output array is in tile `t`'s block iff each coordinate is in the block's range. -/
theorem mem_block (t : Fin cfg0.N) (i : S50000x128.Idx) :
    i ∈ ((cfg0.win 2).blk t).view.set
      ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Every entry of the output array is in some tile's block: row `r` is in tile `r / 10000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 10000, by omega⟩
  have q0 : win0_2.index t (0 : Fin 2) = (i 0).val / 10000 := ht
  obtain ⟨-, -, -, -, e4, -⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the region the output array is the whole product of the two arrays the region found on entry. -/
theorem final (c : Dev nD) : (dat0 V c).arrAt 2 cfg0.N = product (V c main_v31) (V c main_v32) :=
  (dat0 V c).arrAt_eq_of_cover 2 (product (V c main_v31) (V c main_v32)) (fun t _ => flushed_eq V c t) covered

end Cert.KernelIdeal.Product0

end
-- ==== Proof.Product1.lean ====
/-
  The second matrix-product region computes the whole product.

  The region runs over five row tiles. At tile `t` the body multiplies rows 10000·t … 10000·t + 9999 of the left array
  (all 128 columns) by the whole right array into a zero accumulator and writes the 10000 × 128 result to the same rows
  of the output. At the ideal values entry (a, b) of a tile's result is the sum over k < 128 of left(a, k) · right(k, b),
  which is entry (10000·t + a, b) of the whole product; the five tiles cover all 50000 rows, so after the region the
  output array is the whole product of the two arrays the region found on entry.
-/
import proofs.«147594_j19825569038949_1_alg».proof.Proof.Gen.KernelIdeal.Frame
import proofs.«147594_j19825569038949_1_alg».proof.Proof.LibPlainDot
import Idealize.ShloMosaic.Lib.Pipeline.Value
import Idealize.ShloMosaic.Lib.ValueIdx

set_option maxRecDepth 16384

noncomputable section

namespace Cert.KernelIdeal.Product1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The whole product: entry (a, b) is the sum over k < 128 of left(a, k) · right(k, b). -/
def product (A : (⟨2, ![50000, 128]⟩ : Shape).Idx → EReal) (B : (⟨2, ![128, 128]⟩ : Shape).Idx → EReal) :
    (⟨2, ![50000, 128]⟩ : Shape).Idx → EReal :=
  fun i => ∑ k : Fin 128, A (ix2 (i 0) k) * B (ix2 k (i 1))

/-- A tile's result at an entry: the body's product into a zero accumulator is the plain sum over the 128 columns. -/
theorem tile_apply (x0 : Vec Ideal S10000x128 .bf16) (x1 : Vec Ideal S128x128 .bf16) (j : S10000x128.Idx) :
    k1_pay1 (F := Ideal) x0 x1 j = ∑ k : Fin 128, x0 (ix2 (j 0) k) * x1 (ix2 k (j 1)) := by
  unfold k1_pay1
  simp only [shapeCast_self]
  exact Cert.LibPlainDot.matmul_plain 10000 128 128 none x0 x1 j

/-- The printed index maps, decided over the five tiles: the left window moves with the output's rows and spans all
    columns; the right window stays; the output's column block is 0 and its row block is below 5. -/
theorem index_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every row block is some tile's. -/
theorem index_onto : ∀ q : Fin 5, ∃ t : Fin cfg1.N, win1_2.index t (0 : Fin 2) = q.val :=
  (by decide +kernel : ∀ q : Fin 5, ∃ t : Fin grid1.N, win1_2.index t (0 : Fin 2) = q.val)

/-- What tile `t` writes back is its block of the whole product of the arrays the region found. -/
theorem flushed_eq (c : Dev nD) (t : Fin cfg1.N) :
    (dat1 V c).flushed 2 t
      = ((cfg1.win 2).blk t).view.read (Elt Ideal) (product (V c main_v48) (V c main_v49)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S128x128) offsets_zero]
  obtain ⟨e0, e1, e2, e3, e4, -⟩ := index_facts t
  funext j
  show k1_pay1 (F := Ideal) (iblk1 V c 0 t) (iblk1 V c 1 t) j
    = product (V c main_v48) (V c main_v49) (((cfg1.win 2).blk t).view.emb j)
  refine (tile_apply (iblk1 V c 0 t) (iblk1 V c 1 t) j).trans ?_
  unfold product
  refine Finset.sum_congr rfl fun k _ => ?_
  have hA : iblk1 V c 0 t (ix2 (j 0) k) = V c main_v48 (ix2 ((((cfg1.win 2).blk t).view.emb j) 0) k) := by
    show V c main_v48 (((cfg1.win 0).blk t).view.emb (ix2 (j 0) k)) = _
    refine congrArg (V c main_v48) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * k.val = k.val
      omega
  have hB : iblk1 V c 1 t (ix2 k (j 1)) = V c main_v49 (ix2 k ((((cfg1.win 2).blk t).view.emb j) 1)) := by
    show V c main_v49 (((cfg1.win 1).blk t).view.emb (ix2 k (j 1))) = _
    refine congrArg (V c main_v49) (funext fun a => Fin.ext ?_)
    match a with
    | ⟨0, _⟩ =>
      show win1_1.index t (0 : Fin 2) * 128 + 1 * k.val = k.val
      omega
    | ⟨1, _⟩ =>
      show win1_1.index t (1 : Fin 2) * 128 + 1 * (j 1).val = win1_2.index t (1 : Fin 2) * 128 + 1 * (j 1).val
      omega
  exact congr (congrArg HMul.hMul hA) hB

/-- An entry of the output array is in tile `t`'s block iff each coordinate is in the block's range. -/
theorem mem_block (t : Fin cfg1.N) (i : S50000x128.Idx) :
    i ∈ ((cfg1.win 2).blk t).view.set
      ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- Every entry of the output array is in some tile's block: row `r` is in tile `r / 10000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 10000, by omega⟩
  have q0 : win1_2.index t (0 : Fin 2) = (i 0).val / 10000 := ht
  obtain ⟨-, -, -, -, e4, -⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After the region the output array is the whole product of the two arrays the region found on entry. -/
theorem final (c : Dev nD) : (dat1 V c).arrAt 2 cfg1.N = product (V c main_v48) (V c main_v49) :=
  (dat1 V c).arrAt_eq_of_cover 2 (product (V c main_v48) (V c main_v49)) (fun t _ => flushed_eq V c t) covered

end Cert.KernelIdeal.Product1

end
-- ==== Proof.Product2.lean ====
/-
  The third matrix-product region computes the whole product.

  The region runs over five row tiles. At tile `t` the body multiplies rows 10000·t … 10000·t + 9999 of the left array
  (all 128 columns) by the whole right array into a zero accumulator and writes the 10000 × 128 result to the same rows
  of the output. At the ideal values entry (a, b) of a tile's result is the sum over k < 128 of left(a, k) · right(k, b),
  which is entry (10000·t + a, b) of the whole product; the five tiles cover all 50000 rows, so after the region the
  output array is the whole product of the two arrays the region found on entry.
-/
import proofs.«147594_j19825569038949_1_alg».proof.Proof.Gen.KernelIdeal.Frame
import proofs.«147594_j19825569038949_1_alg».proof.Proof.LibPlainDot
import Idealize.ShloMosaic.Lib.Pipeline.Value
import Idealize.ShloMosaic.Lib.ValueIdx

set_option maxRecDepth 16384

noncomputable section

namespace Cert.KernelIdeal.Product2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The whole product: entry (a, b) is the sum over k < 128 of left(a, k) · right(k, b). -/
def product (A : (⟨2, ![50000, 128]⟩ : Shape).Idx → EReal) (B : (⟨2, ![128, 128]⟩ : Shape).Idx → EReal) :
    (⟨2, ![50000, 128]⟩ : Shape).Idx → EReal :=
  fun i => ∑ k : Fin 128, A (ix2 (i 0) k) * B (ix2 k (i 1))

/-- A tile's result at an entry: the body's product into a zero accumulator is the plain sum over the 128 columns. -/
theorem tile_apply (x0 : Vec Ideal S10000x128 .bf16) (x1 : Vec Ideal S128x128 .bf16) (j : S10000x128.Idx) :
    k2_pay1 (F := Ideal) x0 x1 j = ∑ k : Fin 128, x0 (ix2 (j 0) k) * x1 (ix2 k (j 1)) := by
  unfold k2_pay1
  simp only [shapeCast_self]
  exact Cert.LibPlainDot.matmul_plain 10000 128 128 none x0 x1 j

/-- The printed index maps, decided over the five tiles: the left window moves with the output's rows and spans all
    columns; the right window stays; the output's column block is 0 and its row block is below 5. -/
theorem index_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 4 :=
  (by decide +kernel : ∀ t : Fin grid2.N, _)

/-- Every row block is some tile's. -/
theorem index_onto : ∀ q : Fin 5, ∃ t : Fin cfg2.N, win2_2.index t (0 : Fin 2) = q.val :=
  (by decide +kernel : ∀ q : Fin 5, ∃ t : Fin grid2.N, win2_2.index t (0 : Fin 2) = q.val)

/-- What tile `t` writes back is its block of the whole product of the arrays the region found. -/
theorem flushed_eq (c : Dev nD) (t : Fin cfg2.N) :
    (dat2 V c).flushed 2 t
      = ((cfg2.win 2).blk t).view.read (Elt Ideal) (product (V c main_v65) (V c main_v66)) := by
  show (cfg2.win 2).cut (grid2.coords t) ((dat2 V c).after 2 t) = _
  rw [after2_2]
  unfold out2_2
  rw [View.canon_unit_zero offsets_zero]
  simp only [View.ld_unit_zero (S := S10000x128) offsets_zero, View.ld_unit_zero (S := S128x128) offsets_zero]
  obtain ⟨e0, e1, e2, e3, e4, -⟩ := index_facts t
  funext j
  show k2_pay1 (F := Ideal) (iblk2 V c 0 t) (iblk2 V c 1 t) j
    = product (V c main_v65) (V c main_v66) (((cfg2.win 2).blk t).view.emb j)
  refine (tile_apply (iblk2 V c 0 t) (iblk2 V c 1 t) j).trans ?_
  unfold product
  refine Finset.sum_congr rfl fun k _ => ?_
  have hA : iblk2 V c 0 t (ix2 (j 0) k) = V c main_v65 (ix2 ((((cfg2.win 2).blk t).view.emb j) 0) k) := by
    show V c main_v65 (((cfg2.win 0).blk t).view.emb (ix2 (j 0) k)) = _
    refine congrArg (V c main_v65) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 128 + 1 * k.val = k.val
      omega
  have hB : iblk2 V c 1 t (ix2 k (j 1)) = V c main_v66 (ix2 k ((((cfg2.win 2).blk t).view.emb j) 1)) := by
    show V c main_v66 (((cfg2.win 1).blk t).view.emb (ix2 k (j 1))) = _
    refine congrArg (V c main_v66) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega
  exact congr (congrArg HMul.hMul hA) hB

/-- An entry of the output array is in tile `t`'s block iff each coordinate is in the block's range. -/
theorem mem_block (t : Fin cfg2.N) (i : S50000x128.Idx) :
    i ∈ ((cfg2.win 2).blk t).view.set
      ↔ ∀ a : Fin 2, win2_2.index t a * S10000x128.size a ≤ (i a).val ∧ (i a).val < win2_2.index t a * S10000x128.size a + S10000x128.size a := by
  show i ∈ ((View.whole main_v67).slice (win2_2.rect t)).set ↔ _
  rw [View.set_slice_whole, Rect.mem_set_unit]
  exact Iff.rfl

/-- Every entry of the output array is in some tile's block: row `r` is in tile `r / 10000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 10000, by omega⟩
  have q0 : win2_2.index t (0 : Fin 2) = (i 0).val / 10000 := ht
  obtain ⟨-, -, -, -, e4, -⟩ := index_facts t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- After the region the output array is the whole product of the two arrays the region found on entry. -/
theorem final (c : Dev nD) : (dat2 V c).arrAt 2 cfg2.N = product (V c main_v65) (V c main_v66) :=
  (dat2 V c).arrAt_eq_of_cover 2 (product (V c main_v65) (V c main_v66)) (fun t _ => flushed_eq V c t) covered

end Cert.KernelIdeal.Product2

end
-- ==== Proof.KernelValue.lean ====
/-
  The kernel's result is the network with the host's products, at the ideal values.

  Reading the result buffer back through the kernel's segments: the last stretch propagates the third product; the
  third product is the whole product of what the stretch before it left — the rectified, propagated second product
  and the third weight matrix, brought to the product's input format, which at the ideal values is no change —; and so
  on down to the first product of the features and the first weight matrix. The edge lists and the edge weights are
  computed once, before the first product, and nothing after writes them. A whole product is the sum over k of
  left(a, k) · right(k, b), which is also what the host's product is at the ideal values.
-/
import proofs.«147594_j19825569038949_1_alg».proof.Proof.Gen.KernelIdeal.Frame
import proofs.«147594_j19825569038949_1_alg».proof.Proof.KernelHost
import proofs.«147594_j19825569038949_1_alg».proof.Proof.Product0
import proofs.«147594_j19825569038949_1_alg».proof.Proof.Product1
import proofs.«147594_j19825569038949_1_alg».proof.Proof.Product2
import proofs.«147594_j19825569038949_1_alg».proof.Proof.GraphConv

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Cert.GraphConv

variable (m : (ℓ : Loc nD τ sig) → Buf (Elt Ideal) ℓ) (ρ : Dev nD → PrngReg) (c : Dev nD)

/-- At the ideal values the host's 256-wide product is the sum over the 256 columns. -/
theorem hostProduct0_eq (l : FVec Ideal Cert.ReferenceIdeal.S50000x256 .f32) (r : FVec Ideal Cert.ReferenceIdeal.S256x128 .f32) :
    hostProduct0 (F := Ideal) l r = Product0.product l r :=
  funext fun j => Cert.LibPlainDot.dotGeneral_plain 50000 256 128 none l r j

/-- At the ideal values the host's 128-wide product is the sum over the 128 columns. -/
theorem hostProduct1_eq (l : FVec Ideal Cert.ReferenceIdeal.S50000x128 .f32) (r : FVec Ideal Cert.ReferenceIdeal.S128x128 .f32) :
    hostProduct1 (F := Ideal) l r = Product1.product l r :=
  funext fun j => Cert.LibPlainDot.dotGeneral_plain 50000 128 128 none l r j

/-- At the ideal values bringing a vector to the product's input format changes nothing. -/
theorem format_change {s : Shape} (X : FVec Ideal s .f32) (h : FTy.bits .bf16 < FTy.bits .f32) :
    truncf (F := Ideal) .bf16 X h = X := rfl

/-- The second and the third region compute the same function. -/
theorem product2_eq : @Product2.product = @Product1.product := rfl

/-! ## On entry to the first region -/

theorem src3 : W3 m ρ c (Proc.devRef .tc main_v3) = sources (m ((c : Thread nD τ).loc main_arg1)) := HostVal.seg0_sources (W0 m ρ c)
theorem tgt3 : W3 m ρ c (Proc.devRef .tc main_v7) = targets (m ((c : Thread nD τ).loc main_arg1)) := HostVal.seg0_targets (W0 m ρ c)
theorem wgt3 : W3 m ρ c (Proc.devRef .tc main_v30) = edgeWeight (F := Ideal) (sources (m ((c : Thread nD τ).loc main_arg1))) (targets (m ((c : Thread nD τ).loc main_arg1))) :=
  HostVal.seg0_weights (W0 m ρ c)
theorem lhs3 : W3 m ρ c (Proc.devRef .tc main_v31) = (m ((c : Thread nD τ).loc main_arg0)) := HostVal.seg0_features (W0 m ρ c)
theorem rhs3 : W3 m ρ c (Proc.devRef .tc main_v32) = (m ((c : Thread nD τ).loc main_arg2)) := HostVal.seg0_matrix (W0 m ρ c)
theorem mat1_3 : W3 m ρ c (Proc.devRef .tc main_arg3) = (m ((c : Thread nD τ).loc main_arg3)) := HostVal.seg0_arg3 (W0 m ρ c)
theorem mat2_3 : W3 m ρ c (Proc.devRef .tc main_arg4) = (m ((c : Thread nD τ).loc main_arg4)) := HostVal.seg0_arg4 (W0 m ρ c)

/-! ## After the first region -/

theorem prod4 : W4 m ρ c (Proc.devRef .tc main_v33) = hostProduct0 (F := Ideal) (m ((c : Thread nD τ).loc main_arg0)) (m ((c : Thread nD τ).loc main_arg2)) := by
  rw [hostProduct0_eq]
  refine (W4_arr m ρ c 2).trans ((Product0.final (V3 m ρ) c).trans ?_)
  show Product0.product (W3 m ρ c (Proc.devRef .tc main_v31)) (W3 m ρ c (Proc.devRef .tc main_v32)) = _
  rw [lhs3, rhs3]
theorem src4 : W4 m ρ c (Proc.devRef .tc main_v3) = sources (m ((c : Thread nD τ).loc main_arg1)) := (W4_of_ne m ρ c main_v3 (by decide)).trans (src3 m ρ c)
theorem tgt4 : W4 m ρ c (Proc.devRef .tc main_v7) = targets (m ((c : Thread nD τ).loc main_arg1)) := (W4_of_ne m ρ c main_v7 (by decide)).trans (tgt3 m ρ c)
theorem wgt4 : W4 m ρ c (Proc.devRef .tc main_v30) = edgeWeight (F := Ideal) (sources (m ((c : Thread nD τ).loc main_arg1))) (targets (m ((c : Thread nD τ).loc main_arg1))) :=
  (W4_of_ne m ρ c main_v30 (by decide)).trans (wgt3 m ρ c)
theorem mat1_4 : W4 m ρ c (Proc.devRef .tc main_arg3) = (m ((c : Thread nD τ).loc main_arg3)) := (W4_of_ne m ρ c main_arg3 (by decide)).trans (mat1_3 m ρ c)
theorem mat2_4 : W4 m ρ c (Proc.devRef .tc main_arg4) = (m ((c : Thread nD τ).loc main_arg4)) := (W4_of_ne m ρ c main_arg4 (by decide)).trans (mat2_3 m ρ c)

/-! ## On entry to the second region -/

/-- The first layer's output: the first product propagated along the edges. -/
abbrev layer1 : FVec Ideal Cert.ReferenceIdeal.S50000x128 .f32 :=
  propagate (F := Ideal) (hostProduct0 (F := Ideal) (m ((c : Thread nD τ).loc main_arg0)) (m ((c : Thread nD τ).loc main_arg2))) (sources (m ((c : Thread nD τ).loc main_arg1))) (targets (m ((c : Thread nD τ).loc main_arg1))) (edgeWeight (F := Ideal) (sources (m ((c : Thread nD τ).loc main_arg1))) (targets (m ((c : Thread nD τ).loc main_arg1))))

theorem lhs7 : W7 m ρ c (Proc.devRef .tc main_v48) = relu (F := Ideal) (layer1 m c) := by
  refine (HostVal.seg1_features (W4 m ρ c)).trans ?_
  rw [prod4, src4, tgt4, wgt4]
  exact format_change _ _
theorem rhs7 : W7 m ρ c (Proc.devRef .tc main_v49) = (m ((c : Thread nD τ).loc main_arg3)) := (HostVal.seg1_matrix (W4 m ρ c)).trans (mat1_4 m ρ c)
theorem src7 : W7 m ρ c (Proc.devRef .tc main_v3) = sources (m ((c : Thread nD τ).loc main_arg1)) := (HostVal.seg1_sources (W4 m ρ c)).trans (src4 m ρ c)
theorem tgt7 : W7 m ρ c (Proc.devRef .tc main_v7) = targets (m ((c : Thread nD τ).loc main_arg1)) := (HostVal.seg1_targets (W4 m ρ c)).trans (tgt4 m ρ c)
theorem wgt7 : W7 m ρ c (Proc.devRef .tc main_v30) = edgeWeight (F := Ideal) (sources (m ((c : Thread nD τ).loc main_arg1))) (targets (m ((c : Thread nD τ).loc main_arg1))) :=
  (HostVal.seg1_weights (W4 m ρ c)).trans (wgt4 m ρ c)
theorem mat2_7 : W7 m ρ c (Proc.devRef .tc main_arg4) = (m ((c : Thread nD τ).loc main_arg4)) := (HostVal.seg1_arg4 (W4 m ρ c)).trans (mat2_4 m ρ c)

/-! ## After the second region -/

theorem prod8 : W8 m ρ c (Proc.devRef .tc main_v50) = hostProduct1 (F := Ideal) (relu (F := Ideal) (layer1 m c)) (m ((c : Thread nD τ).loc main_arg3)) := by
  rw [hostProduct1_eq]
  refine (W8_arr m ρ c 2).trans ((Product1.final (V7 m ρ) c).trans ?_)
  show Product1.product (W7 m ρ c (Proc.devRef .tc main_v48)) (W7 m ρ c (Proc.devRef .tc main_v49)) = _
  rw [lhs7, rhs7]
theorem src8 : W8 m ρ c (Proc.devRef .tc main_v3) = sources (m ((c : Thread nD τ).loc main_arg1)) := (W8_of_ne m ρ c main_v3 (by decide)).trans (src7 m ρ c)
theorem tgt8 : W8 m ρ c (Proc.devRef .tc main_v7) = targets (m ((c : Thread nD τ).loc main_arg1)) := (W8_of_ne m ρ c main_v7 (by decide)).trans (tgt7 m ρ c)
theorem wgt8 : W8 m ρ c (Proc.devRef .tc main_v30) = edgeWeight (F := Ideal) (sources (m ((c : Thread nD τ).loc main_arg1))) (targets (m ((c : Thread nD τ).loc main_arg1))) :=
  (W8_of_ne m ρ c main_v30 (by decide)).trans (wgt7 m ρ c)
theorem mat2_8 : W8 m ρ c (Proc.devRef .tc main_arg4) = (m ((c : Thread nD τ).loc main_arg4)) := (W8_of_ne m ρ c main_arg4 (by decide)).trans (mat2_7 m ρ c)

/-! ## On entry to the third region -/

/-- The second layer's output. -/
abbrev layer2 : FVec Ideal Cert.ReferenceIdeal.S50000x128 .f32 :=
  propagate (F := Ideal) (hostProduct1 (F := Ideal) (relu (F := Ideal) (layer1 m c)) (m ((c : Thread nD τ).loc main_arg3))) (sources (m ((c : Thread nD τ).loc main_arg1))) (targets (m ((c : Thread nD τ).loc main_arg1)))
    (edgeWeight (F := Ideal) (sources (m ((c : Thread nD τ).loc main_arg1))) (targets (m ((c : Thread nD τ).loc main_arg1))))

theorem lhs11 : W11 m ρ c (Proc.devRef .tc main_v65) = relu (F := Ideal) (layer2 m c) := by
  refine (HostVal.seg2_features (W8 m ρ c)).trans ?_
  rw [prod8, src8, tgt8, wgt8]
  exact format_change _ _
theorem rhs11 : W11 m ρ c (Proc.devRef .tc main_v66) = (m ((c : Thread nD τ).loc main_arg4)) := (HostVal.seg2_matrix (W8 m ρ c)).trans (mat2_8 m ρ c)
theorem src11 : W11 m ρ c (Proc.devRef .tc main_v3) = sources (m ((c : Thread nD τ).loc main_arg1)) := (HostVal.seg2_sources (W8 m ρ c)).trans (src8 m ρ c)
theorem tgt11 : W11 m ρ c (Proc.devRef .tc main_v7) = targets (m ((c : Thread nD τ).loc main_arg1)) := (HostVal.seg2_targets (W8 m ρ c)).trans (tgt8 m ρ c)
theorem wgt11 : W11 m ρ c (Proc.devRef .tc main_v30) = edgeWeight (F := Ideal) (sources (m ((c : Thread nD τ).loc main_arg1))) (targets (m ((c : Thread nD τ).loc main_arg1))) :=
  (HostVal.seg2_weights (W8 m ρ c)).trans (wgt8 m ρ c)

/-! ## After the third region, and the result -/

theorem prod12 : W12 m ρ c (Proc.devRef .tc main_v67) = hostProduct1 (F := Ideal) (relu (F := Ideal) (layer2 m c)) (m ((c : Thread nD τ).loc main_arg4)) := by
  rw [hostProduct1_eq, ← product2_eq]
  refine (W12_arr m ρ c 2).trans ((Product2.final (V11 m ρ) c).trans ?_)
  show Product2.product (W11 m ρ c (Proc.devRef .tc main_v65)) (W11 m ρ c (Proc.devRef .tc main_v66)) = _
  rw [lhs11, rhs11]
theorem src12 : W12 m ρ c (Proc.devRef .tc main_v3) = sources (m ((c : Thread nD τ).loc main_arg1)) := (W12_of_ne m ρ c main_v3 (by decide)).trans (src11 m ρ c)
theorem tgt12 : W12 m ρ c (Proc.devRef .tc main_v7) = targets (m ((c : Thread nD τ).loc main_arg1)) := (W12_of_ne m ρ c main_v7 (by decide)).trans (tgt11 m ρ c)
theorem wgt12 : W12 m ρ c (Proc.devRef .tc main_v30) = edgeWeight (F := Ideal) (sources (m ((c : Thread nD τ).loc main_arg1))) (targets (m ((c : Thread nD τ).loc main_arg1))) :=
  (W12_of_ne m ρ c main_v30 (by decide)).trans (wgt11 m ρ c)

/-- The kernel's result buffer ends at the network, with the host's products, of the five arguments. -/
theorem result_eq : W13 m ρ c (Proc.devRef .tc main_v80)
    = network (F := Ideal) hostProduct0 hostProduct1 (m ((c : Thread nD τ).loc main_arg0)) (m ((c : Thread nD τ).loc main_arg1)) (m ((c : Thread nD τ).loc main_arg2)) (m ((c : Thread nD τ).loc main_arg3)) (m ((c : Thread nD τ).loc main_arg4)) := by
  refine (HostVal.seg3_result (W12 m ρ c)).trans ?_
  rw [prod12, src12, tgt12, wgt12]
  rfl

end Cert.KernelIdeal.Val

end
-- ==== Proof.lean ====
/-
  A three-layer graph convolution: the kernel against its reference, over the extended reals.

  Both programs compute, from node features `x` (50000 × 256), an edge table `e` (2 × 800000) and three weight matrices,

      out = P(relu(P(relu(P(x·W0))·W1))·W2),

  where `P` propagates a 50000 × 128 matrix along the edges of the graph with self loops, each edge weighted by the
  product of degree^(-1/2) at its two ends (`GraphConv.propagate`, `GraphConv.edgeWeight`). The host code for the edge
  lists, the weights, the propagation and the rectifier is the same in both programs, operation for operation. They
  differ in the three matrix products: the reference uses the host's product on the arrays as they are; the kernel
  first changes the operands' float format and then computes the product in a region of five row tiles, each tile a
  product into a zero accumulator. At the ideal values a change of float format is the identity, and both products are,
  entry by entry, the sum over k of left(a, k) · right(k, b): sums in a commutative monoid, so neither the tiling nor the
  order of the summands matters, and no finiteness of the inputs is used. Hence both runs end at one and the same
  function `GraphConv.network` of the five arguments.

  The kernel's run names its result buffer at the contents of the last segment boundary (`RunV.run`), which
  `Val.result_eq` reads down to the arguments; the reference's run names its result buffer at the fold of its
  operations (`RunP.run`), which `RefValue.result_eq` reads down to the arguments. No rewrite was applied when the
  kernel was idealized, so there is nothing to preserve.
-/
import proofs.«147594_j19825569038949_1_alg».proof.Defs
import proofs.«147594_j19825569038949_1_alg».proof.Proof.Gen.Kernel
import proofs.«147594_j19825569038949_1_alg».proof.Proof.Gen.Kernel.Frame
import proofs.«147594_j19825569038949_1_alg».proof.Proof.Gen.KernelIdeal
import proofs.«147594_j19825569038949_1_alg».proof.Proof.Gen.KernelIdeal.Frame
import proofs.«147594_j19825569038949_1_alg».proof.Proof.Gen.ReferenceIdeal
import proofs.«147594_j19825569038949_1_alg».proof.Proof.Gen.Pre_finite_inputs
import proofs.«147594_j19825569038949_1_alg».proof.Proof.RefRunPatched
import proofs.«147594_j19825569038949_1_alg».proof.Proof.RefValue
import proofs.«147594_j19825569038949_1_alg».proof.Proof.KernelRun
import proofs.«147594_j19825569038949_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- From memories that agree on the arguments both idealized programs end at the network of the arguments. -/
theorem algebraic : Cert.algebraic_KernelIdeal_ReferenceIdeal := by
  intro m ρ m' ρ' _ hagree
  refine ⟨fun c => Cert.GraphConv.network (F := Ideal) Cert.GraphConv.hostProduct0 Cert.GraphConv.hostProduct1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Val.result_eq m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.RunP.run (F := Ideal) m' ρ')
    refine (Cert.ReferenceIdeal.RefValue.result_eq m' c).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
